-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x112x112x128 : Shape := ⟨4, ![32, 112, 112, 128]⟩
abbrev S128x4 : Shape := ⟨2, ![128, 4]⟩
abbrev S_ : Shape := ⟨0, ![]⟩

class Facts : Prop where
  bcast_S_S32x112x112x128 : S_.BroadcastsInDim S32x112x112x128 (![] : Fin 0 → Fin S32x112x112x128.rank)
  reducesTo_S32x112x112x128_S_d0_1_2_3 : S32x112x112x128.ReducesTo [0, 1, 2, 3] S_
  h_S_ : 0 < S_.numel
  bcast_S_S128x4 : S_.BroadcastsInDim S128x4 (![] : Fin 0 → Fin S128x4.rank)
  reducesTo_S128x4_S_d0_1 : S128x4.ReducesTo [0, 1] S_

variable [Facts]

def fn {F : FTy → Type} [FloatOps F] (main_arg0 : FVec F S32x112x112x128 .f32) (main_arg1 : FVec F S128x4 .f32) : IVec S_ 1 :=
  let main_v0 : FVec F S32x112x112x128 .f32 := Host.absf main_arg0
  let main_cst : FVec F S_ .f32 := constant S_ .f32 0x7F800000#32
  let main_v1 : FVec F S32x112x112x128 .f32 := broadcastInDim S32x112x112x128 ![] bcast_S_S32x112x112x128 main_cst
  let main_v2 : IVec S32x112x112x128 1 := cmpf .olt main_v0 main_v1
  let main_c : IVec S_ 1 := constantI S_ 1 1#1
  let main_v3 : IVec S_ 1 := (fun x v => Host.reduce IntOp.andi x v reducesTo_S32x112x112x128_S_d0_1_2_3 h_S_) main_v2 main_c
  let main_v4 : FVec F S128x4 .f32 := Host.absf main_arg1
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  main_v8
-- ==== Kernel.lean ====
abbrev S32x112x112x128 : Shape := ⟨4, ![32, 112, 112, 128]⟩
abbrev S128x4 : Shape := ⟨2, ![128, 4]⟩
abbrev S_ : Shape := ⟨0, ![]⟩
abbrev S128 : Shape := ⟨1, ![128]⟩
abbrev S128x1 : Shape := ⟨2, ![128, 1]⟩
abbrev S4x128 : Shape := ⟨2, ![4, 128]⟩
abbrev S32x56x2x56x256 : Shape := ⟨5, ![32, 56, 2, 56, 256]⟩
abbrev S32x56x56x128 : Shape := ⟨4, ![32, 56, 56, 128]⟩
abbrev S1x56x2x56x256 : Shape := ⟨5, ![1, 56, 2, 56, 256]⟩
abbrev S1x56x56x128 : Shape := ⟨4, ![1, 56, 56, 128]⟩
abbrev S56x2x56x256 : Shape := ⟨4, ![56, 2, 56, 256]⟩
abbrev S56x1x56x128 : Shape := ⟨4, ![56, 1, 56, 128]⟩
abbrev S56x56x128 : Shape := ⟨3, ![56, 56, 128]⟩
abbrev S1x128 : Shape := ⟨2, ![1, 128]⟩
abbrev S1x1x128 : Shape := ⟨3, ![1, 1, 128]⟩

abbrev nBuf : Space → Nat
  | .hbm => 15
  | .vmem => 5
  | .smem => 0
  | _ => 0

abbrev bufTy : (tb : Table) → Fin (tcTables nBuf tb) → BufTy
  | .hbm, ⟨0, _⟩ => ⟨S32x112x112x128, .f32⟩
  | .hbm, ⟨1, _⟩ => ⟨S128x4, .f32⟩
  | .hbm, ⟨2, _⟩ => ⟨S_, .f32⟩
  | .hbm, ⟨3, _⟩ => ⟨S128x4, .f32⟩
  | .hbm, ⟨4, _⟩ => ⟨S128x4, .i1⟩
  | .hbm, ⟨5, _⟩ => ⟨S128x4, .f32⟩
  | .hbm, ⟨6, _⟩ => ⟨S128x4, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S128x4, .f32⟩
  | .hbm, ⟨11, _⟩ => ⟨S128x4, .f32⟩
  | .hbm, ⟨12, _⟩ => ⟨S4x128, .f32⟩
  | .hbm, ⟨13, _⟩ => ⟨S32x56x2x56x256, .f32⟩
  | .hbm, ⟨14, _⟩ => ⟨S32x56x56x128, .f32⟩
  | .local _ .vmem, ⟨0, _⟩ => ⟨S1x56x2x56x256, .f32⟩
  | .local _ .vmem, ⟨1, _⟩ => ⟨S1x56x2x56x256, .f32⟩
  | .local _ .vmem, ⟨2, _⟩ => ⟨S4x128, .f32⟩
  | .local _ .vmem, ⟨3, _⟩ => ⟨S1x56x56x128, .f32⟩
  | .local _ .vmem, ⟨4, _⟩ => ⟨S1x56x56x128, .f32⟩
  | _, _ => ⟨S32x112x112x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x56x2x56x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x56x56x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S128x4 : S_.BroadcastsInDim S128x4 (![] : Fin 0 → Fin S128x4.rank)
  reducesTo_S128x4_S128_d1 : S128x4.ReducesTo [1] S128
  h_S_ : 0 < S_.numel
  bcast_S128_S128x1_0 : S128.BroadcastsInDim S128x1 (![0] : Fin 1 → Fin S128x1.rank)
  bcast_S128x1_S128x4_0_1 : S128x1.BroadcastsInDim S128x4 (![0, 1] : Fin 2 → Fin S128x4.rank)
  transposes_S128x4_S4x128_1_0 : S128x4.Transposes [1, 0] S4x128
  shapeCasts_S32x112x112x128_S32x56x2x56x256 : S32x112x112x128.ShapeCasts S32x56x2x56x256
  inb_S1x56x2x56x256_S1x56x2x56x256_0_0_0_0_0 : ∀ a, (![0, 0, 0, 0, 0] : Fin 5 → Nat) a + S1x56x2x56x256.size a ≤ S1x56x2x56x256.size a
  h_S1x56x2x56x256 : 0 < S1x56x2x56x256.numel
  shapeCasts_S1x56x2x56x256_S56x2x56x256 : S1x56x2x56x256.ShapeCasts S56x2x56x256
  slices_S56x2x56x256_o0_0_0_0_S56x1x56x128 : S56x2x56x256.Slices ![0, 0, 0, 0] S56x1x56x128
  shapeCasts_S56x1x56x128_S56x56x128 : S56x1x56x128.ShapeCasts S56x56x128
  slices_S56x2x56x256_o0_0_0_128_S56x1x56x128 : S56x2x56x256.Slices ![0, 0, 0, 128] S56x1x56x128
  slices_S56x2x56x256_o0_1_0_0_S56x1x56x128 : S56x2x56x256.Slices ![0, 1, 0, 0] S56x1x56x128
  slices_S56x2x56x256_o0_1_0_128_S56x1x56x128 : S56x2x56x256.Slices ![0, 1, 0, 128] S56x1x56x128
  inb_S4x128_S4x128_0_0 : ∀ a, (![0, 0] : Fin 2 → Nat) a + S4x128.size a ≤ S4x128.size a
  h_S4x128 : 0 < S4x128.numel
  shapeCasts_S4x128_S4x128 : S4x128.ShapeCasts S4x128
  slices_S4x128_o0_0_S1x128 : S4x128.Slices ![0, 0] S1x128
  shapeCasts_S1x128_S128 : S1x128.ShapeCasts S128
  slices_S4x128_o1_0_S1x128 : S4x128.Slices ![1, 0] S1x128
  slices_S4x128_o2_0_S1x128 : S4x128.Slices ![2, 0] S1x128
  slices_S4x128_o3_0_S1x128 : S4x128.Slices ![3, 0] S1x128
  shapeCasts_S128_S1x1x128 : S128.ShapeCasts S1x1x128
  broadcasts_S1x1x128_S56x56x128 : S1x1x128.Broadcasts S56x56x128
  inb_S1x56x56x128_S1x56x56x128_0_0_0_0 : ∀ a, (![0, 0, 0, 0] : Fin 4 → Nat) a + S1x56x56x128.size a ≤ S1x56x56x128.size a
  h_S1x56x56x128 : 0 < S1x56x56x128.numel
  shapeCasts_S1x56x56x128_S56x56x128 : S1x56x56x128.ShapeCasts S56x56x128
  shapeCasts_S56x56x128_S1x56x56x128 : S56x56x128.ShapeCasts S1x56x56x128
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x56x2x56x256.size a ≤ S32x56x2x56x256.size a
  hwx0_0 : ∀ i : grid0.Coords, EltTy.bits .f32 = 32 ∨ (Rect.block (s := S32x56x2x56x256) S1x56x2x56x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x56x56x128.size a ≤ S32x56x56x128.size a
  hwx0_2 : ∀ i : grid0.Coords, EltTy.bits .f32 = 32 ∨ (Rect.block (s := S32x56x56x128) S1x56x56x128.size (cc0_transform_2 i) (hinb0_2 i)).WholeWords (EltTy.packing .f32)

variable [Facts₀]

abbrev win0_0 : Pipeline.Window sig grid0 :=
  Pipeline.Window.ofSpec (Memref.whole main_v9) S1x56x2x56x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x56x56x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x112x112x128 : Shape := ⟨4, ![32, 112, 112, 128]⟩
abbrev S128x4 : Shape := ⟨2, ![128, 4]⟩
abbrev S_ : Shape := ⟨0, ![]⟩
abbrev S128 : Shape := ⟨1, ![128]⟩
abbrev S128x1 : Shape := ⟨2, ![128, 1]⟩
abbrev S32x56x2x56x2x128 : Shape := ⟨6, ![32, 56, 2, 56, 2, 128]⟩
abbrev S32x56x1x56x1x128 : Shape := ⟨6, ![32, 56, 1, 56, 1, 128]⟩
abbrev S32x56x56x128 : Shape := ⟨4, ![32, 56, 56, 128]⟩
abbrev S32x56x56x128x1 : Shape := ⟨5, ![32, 56, 56, 128, 1]⟩
abbrev S32x56x56x128x4 : Shape := ⟨5, ![32, 56, 56, 128, 4]⟩
abbrev S1x1x1x128x4 : Shape := ⟨5, ![1, 1, 1, 128, 4]⟩

abbrev nBuf : Space → Nat
  | .hbm => 43
  | .vmem => 0
  | .smem => 0
  | _ => 0

abbrev bufTy : (tb : Table) → Fin (tcTables nBuf tb) → BufTy
  | .hbm, ⟨0, _⟩ => ⟨S32x112x112x128, .f32⟩
  | .hbm, ⟨1, _⟩ => ⟨S128x4, .f32⟩
  | .hbm, ⟨2, _⟩ => ⟨S_, .f32⟩
  | .hbm, ⟨3, _⟩ => ⟨S128x4, .f32⟩
  | .hbm, ⟨4, _⟩ => ⟨S128x4, .i1⟩
  | .hbm, ⟨5, _⟩ => ⟨S128x4, .f32⟩
  | .hbm, ⟨6, _⟩ => ⟨S128x4, .f32⟩
  | .hbm, ⟨7, _⟩ => ⟨S_, .f32⟩
  | .hbm, ⟨8, _⟩ => ⟨S128, .f32⟩
  | .hbm, ⟨9, _⟩ => ⟨S128x1, .f32⟩
  | .hbm, ⟨10, _⟩ => ⟨S128x4, .f32⟩
  | .hbm, ⟨11, _⟩ => ⟨S128x4, .f32⟩
  | .hbm, ⟨12, _⟩ => ⟨S32x56x2x56x2x128, .f32⟩
  | .hbm, ⟨13, _⟩ => ⟨S32x56x1x56x1x128, .f32⟩
  | .hbm, ⟨14, _⟩ => ⟨S32x56x56x128, .f32⟩
  | .hbm, ⟨15, _⟩ => ⟨S32x56x1x56x1x128, .f32⟩
  | .hbm, ⟨16, _⟩ => ⟨S32x56x56x128, .f32⟩
  | .hbm, ⟨17, _⟩ => ⟨S32x56x1x56x1x128, .f32⟩
  | .hbm, ⟨18, _⟩ => ⟨S32x56x56x128, .f32⟩
  | .hbm, ⟨19, _⟩ => ⟨S32x56x1x56x1x128, .f32⟩
  | .hbm, ⟨20, _⟩ => ⟨S32x56x56x128, .f32⟩
  | .hbm, ⟨21, _⟩ => ⟨S32x56x56x128, .f32⟩
  | .hbm, ⟨22, _⟩ => ⟨S32x56x56x128, .f32⟩
  | .hbm, ⟨23, _⟩ => ⟨S32x56x56x128, .f32⟩
  | .hbm, ⟨24, _⟩ => ⟨S32x56x56x128, .f32⟩
  | .hbm, ⟨25, _⟩ => ⟨S32x56x56x128, .f32⟩
  | .hbm, ⟨26, _⟩ => ⟨S32x56x56x128, .f32⟩
  | .hbm, ⟨27, _⟩ => ⟨S32x56x56x128, .f32⟩
  | .hbm, ⟨28, _⟩ => ⟨S32x56x56x128, .f32⟩
  | .hbm, ⟨29, _⟩ => ⟨S32x56x56x128, .f32⟩
  | .hbm, ⟨30, _⟩ => ⟨S32x56x56x128, .f32⟩
  | .hbm, ⟨31, _⟩ => ⟨S32x56x56x128, .f32⟩
  | .hbm, ⟨32, _⟩ => ⟨S32x56x56x128, .f32⟩
  | .hbm, ⟨33, _⟩ => ⟨S32x56x56x128x1, .f32⟩
  | .hbm, ⟨34, _⟩ => ⟨S32x56x56x128x1, .f32⟩
  | .hbm, ⟨35, _⟩ => ⟨S32x56x56x128x1, .f32⟩
  | .hbm, ⟨36, _⟩ => ⟨S32x56x56x128x1, .f32⟩
  | .hbm, ⟨37, _⟩ => ⟨S32x56x56x128x4, .f32⟩
  | .hbm, ⟨38, _⟩ => ⟨S1x1x1x128x4, .f32⟩
  | .hbm, ⟨39, _⟩ => ⟨S32x56x56x128x4, .f32⟩
  | .hbm, ⟨40, _⟩ => ⟨S32x56x56x128x4, .f32⟩
  | .hbm, ⟨41, _⟩ => ⟨S_, .f32⟩
  | .hbm, ⟨42, _⟩ => ⟨S32x56x56x128, .f32⟩
  | _, _ => ⟨S32x112x112x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst_1 : Ref sig .tc := ⟨.hbm, 41, rfl⟩
abbrev main_v37 : Ref sig .tc := ⟨.hbm, 42, rfl⟩

abbrev nD : Nat := 1
abbrev τ : Topo := Topo.v7x

variable {F : FTy → Type} [FloatOps F]

class Facts₀ : Prop where
  bcast_S_S128x4 : S_.BroadcastsInDim S128x4 (![] : Fin 0 → Fin S128x4.rank)
  reducesTo_S128x4_S128_d1 : S128x4.ReducesTo [1] S128
  h_S_ : 0 < S_.numel
  bcast_S128_S128x1_0 : S128.BroadcastsInDim S128x1 (![0] : Fin 1 → Fin S128x1.rank)
  bcast_S128x1_S128x4_0_1 : S128x1.BroadcastsInDim S128x4 (![0, 1] : Fin 2 → Fin S128x4.rank)
  shapeCasts_S32x112x112x128_S32x56x2x56x2x128 : S32x112x112x128.ShapeCasts S32x56x2x56x2x128
  slices_S32x56x2x56x2x128_S32x56x1x56x1x128_0_0_0_0_0_0 : S32x56x2x56x2x128.Slices ![0, 0, 0, 0, 0, 0] S32x56x1x56x1x128
  shapeCasts_S32x56x1x56x1x128_S32x56x56x128 : S32x56x1x56x1x128.ShapeCasts S32x56x56x128
  slices_S32x56x2x56x2x128_S32x56x1x56x1x128_0_0_0_0_1_0 : S32x56x2x56x2x128.Slices ![0, 0, 0, 0, 1, 0] S32x56x1x56x1x128
  slices_S32x56x2x56x2x128_S32x56x1x56x1x128_0_0_1_0_0_0 : S32x56x2x56x2x128.Slices ![0, 0, 1, 0, 0, 0] S32x56x1x56x1x128
  slices_S32x56x2x56x2x128_S32x56x1x56x1x128_0_0_1_0_1_0 : S32x56x2x56x2x128.Slices ![0, 0, 1, 0, 1, 0] S32x56x1x56x1x128
  bcast_S32x56x56x128_S32x56x56x128x1_0_1_2_3 : S32x56x56x128.BroadcastsInDim S32x56x56x128x1 (![0, 1, 2, 3] : Fin 4 → Fin S32x56x56x128x1.rank)
  concatenates_S32x56x56x128x1_S32x56x56x128x1_S32x56x56x128x1_S32x56x56x128x1_S32x56x56x128x4_d4 : Shape.Concatenates [S32x56x56x128x1, S32x56x56x128x1, S32x56x56x128x1, S32x56x56x128x1] S32x56x56x128x4 4
  bcast_S128x4_S1x1x1x128x4_3_4 : S128x4.BroadcastsInDim S1x1x1x128x4 (![3, 4] : Fin 2 → Fin S1x1x1x128x4.rank)
  bcast_S1x1x1x128x4_S32x56x56x128x4_0_1_2_3_4 : S1x1x1x128x4.BroadcastsInDim S32x56x56x128x4 (![0, 1, 2, 3, 4] : Fin 5 → Fin S32x56x56x128x4.rank)
  reducesTo_S32x56x56x128x4_S32x56x56x128_d4 : S32x56x56x128x4.ReducesTo [4] S32x56x56x128

variable [Facts₀]

class Facts : Prop extends Facts₀ where

variable [Facts]
-- ==== Proof.Spec.lean ====
/-
  Ordinal pooling over 2×2 windows: the specification both programs are compared with.

  An image `x` of shape [32, 112, 112, 128] is cut into non-overlapping 2×2 windows along its two middle axes. The four
  entries of a window (for one batch entry `n`, one output position `(p, q)` and one channel `c`)

      a = x[n, 2p, 2q, c]   b = x[n, 2p, 2q+1, c]   c' = x[n, 2p+1, 2q, c]   d = x[n, 2p+1, 2q+1, c]

  go through the odd-even transposition network on four wires — five compare-exchange steps, each replacing a pair by its
  maximum and its minimum — and the four outputs, largest first, are weighted by the channel's four weights and added:

      out[n, p, q, c] = ((s₀·w[c,0] + s₁·w[c,1]) + s₂·w[c,2]) + s₃·w[c,3].

  `net` is that expression of eight scalars, written over any float instance with the instance's own maximum, minimum,
  product and sum, in exactly the grouping above; `pooled` reads the eight scalars off an image and a weight table. Nothing
  here is proved: the two programs are each shown to compute `pooled`.
-/
import Idealize.ShloMosaic.PureOps.Ideal
import Idealize.ShloMosaic.Lib.ValueIdx

noncomputable section

namespace Cert.OrdinalPool

open Idealize.ShloMosaic Idealize.ShloMosaic.ValueIdx

variable {F : FTy → Type} [FloatOps F]

/-- The image, the weight table and the pooled image, as shapes. -/
abbrev SImg : Shape := ⟨4, ![32, 112, 112, 128]⟩
abbrev SWts : Shape := ⟨2, ![128, 4]⟩
abbrev SOut : Shape := ⟨4, ![32, 56, 56, 128]⟩

/-- The sorting network on the window `(a, b, c, d)` followed by the weighted sum. With `hi₁ = max a b`, `lo₁ = min a b`,
    `hi₂ = max c d`, `lo₂ = min c d`, `m = max lo₁ hi₂`, `m' = min lo₁ hi₂`, `t = min hi₁ m`, `u = max m' lo₂`, the sorted
    values are `s₀ = max hi₁ m`, `s₁ = max t u`, `s₂ = min t u`, `s₃ = min m' lo₂`. -/
def net (a b c d w0 w1 w2 w3 : F .f32) : F .f32 :=
  FloatOps.addf (FloatOps.addf (FloatOps.addf
    (FloatOps.mulf
      (FloatOps.maximumf (FloatOps.maximumf a b) (FloatOps.maximumf (FloatOps.minimumf a b) (FloatOps.maximumf c d))) w0)
    (FloatOps.mulf
      (FloatOps.maximumf
        (FloatOps.minimumf (FloatOps.maximumf a b) (FloatOps.maximumf (FloatOps.minimumf a b) (FloatOps.maximumf c d)))
        (FloatOps.maximumf (FloatOps.minimumf (FloatOps.minimumf a b) (FloatOps.maximumf c d)) (FloatOps.minimumf c d))) w1))
    (FloatOps.mulf
      (FloatOps.minimumf
        (FloatOps.minimumf (FloatOps.maximumf a b) (FloatOps.maximumf (FloatOps.minimumf a b) (FloatOps.maximumf c d)))
        (FloatOps.maximumf (FloatOps.minimumf (FloatOps.minimumf a b) (FloatOps.maximumf c d)) (FloatOps.minimumf c d))) w2))
    (FloatOps.mulf
      (FloatOps.minimumf (FloatOps.minimumf (FloatOps.minimumf a b) (FloatOps.maximumf c d)) (FloatOps.minimumf c d)) w3)

/-- The image entry in row `kh`, column `kw` of the window that output index `i` pools. -/
abbrev src (i : SOut.Idx) (kh kw : Fin 2) : SImg.Idx :=
  ix4 (⟨(i 0).val, (i 0).isLt⟩ : Fin 32)
    (⟨2 * (i 1).val + kh.val, by have h : (i 1).val < 56 := (i 1).isLt; have := kh.isLt; omega⟩ : Fin 112)
    (⟨2 * (i 2).val + kw.val, by have h : (i 2).val < 56 := (i 2).isLt; have := kw.isLt; omega⟩ : Fin 112)
    (⟨(i 3).val, (i 3).isLt⟩ : Fin 128)

/-- The weight of rank `k` for the channel of output index `i`. -/
abbrev wix (i : SOut.Idx) (k : Fin 4) : SWts.Idx := ix2 (⟨(i 3).val, (i 3).isLt⟩ : Fin 128) k

/-- Ordinal pooling of the image `X` with the weight table `W`. -/
def pooled (X : SImg.Idx → F .f32) (W : SWts.Idx → F .f32) : SOut.Idx → F .f32 := fun i =>
  net (X (src i 0 0)) (X (src i 0 1)) (X (src i 1 0)) (X (src i 1 1)) (W (wix i 0)) (W (wix i 1)) (W (wix i 2)) (W (wix i 3))

end Cert.OrdinalPool

end
-- ==== Proof.Payload.lean ====
/-
  The kernel body's stored value at an index of the output block.

  At one grid point the body loads the point's image block `P0` of shape [1, 56, 2, 56, 256] — rows `p`, the window row `kh`, columns
  `q`, and on the last axis the window column `kw` and the channel `c` side by side, at lane `128·kw + c` — and the transposed
  weight table `P1` of shape [4, 128]. It drops the unit axis, takes the four slices `(kh, kw)`, runs the sorting network on
  them elementwise, multiplies the four sorted arrays by the four weight rows broadcast over `(p, q)`, adds them up in
  order, and stores the result with the unit axis put back. Read at block index `y = (0, p, q, c)` this is the specification's
  `net` of `P0[0, p, kh, q, 128·kw + c]` and `P1[k, c]`: every layout operation on the way keeps or shifts coordinates.
-/
import proofs.«172936_j31842887532985_2_alg».proof.Proof.Gen.KernelIdeal.Skeleton
import proofs.«172936_j31842887532985_2_alg».proof.Proof.Spec
import Idealize.ShloMosaic.Lib.Pipeline.Value

noncomputable section

namespace Cert.KernelIdeal.KValue

open Cert.KernelIdeal Cert.KernelIdeal.Gen Idealize.ShloMosaic Idealize.ShloMosaic.ValueIdx
open Cert.OrdinalPool

variable {F : FTy → Type} [FloatOps F]

/-- Where block index `y` finds the window entry `(kh, kw)` in the image block. -/
abbrev bsrc (y : S1x56x56x128.Idx) (kh kw : Fin 2) : S1x56x2x56x256.Idx :=
  ix5 (⟨0, Nat.one_pos⟩ : Fin 1) (⟨(y 1).val, (y 1).isLt⟩ : Fin 56) kh (⟨(y 2).val, (y 2).isLt⟩ : Fin 56)
    (⟨(y 3).val + 128 * kw.val, by have h : (y 3).val < 128 := (y 3).isLt; have := kw.isLt; omega⟩ : Fin 256)

/-- Where block index `y` finds the weight of rank `k` in the transposed weight table. -/
abbrev bwix (y : S1x56x56x128.Idx) (k : Fin 4) : S4x128.Idx := ix2 k (⟨(y 3).val, (y 3).isLt⟩ : Fin 128)

/-- One window slice of the image block, as the body forms it: unit axis dropped, a unit slice on the window row at lane
    offset `o`, the window-row axis dropped. -/
def part (P0 : Vec F S1x56x2x56x256 .f32) (kh o : Nat) (hs : S56x2x56x256.Slices ![0, kh, 0, o] S56x1x56x128) :
    FVec F S56x56x128 .f32 :=
  shapeCast S56x56x128 (extractStridedSlice S56x1x56x128 ![0, kh, 0, o]
    (shapeCast S56x2x56x256 P0 shapeCasts_S1x56x2x56x256_S56x2x56x256) hs) shapeCasts_S56x1x56x128_S56x56x128

/-- One weight row, as the body forms it: row `k` of the table, made a vector, given two unit axes and broadcast over `(p, q)`. -/
def wrow (P1 : Vec F S4x128 .f32) (k : Nat) (hs : S4x128.Slices ![k, 0] S1x128) : FVec F S56x56x128 .f32 :=
  broadcastTo S56x56x128 (shapeCast S1x1x128 (shapeCast S128 (extractStridedSlice S1x128 ![k, 0]
    (shapeCast S4x128 P1 shapeCasts_S4x128_S4x128) hs) shapeCasts_S1x128_S128) shapeCasts_S128_S1x1x128) broadcasts_S1x1x128_S56x56x128

/-- The slice at `(p, q, c)` is the block at `(0, p, kh, q, c + o)`. -/
theorem part_at (P0 : Vec F S1x56x2x56x256 .f32) (kh o : Nat) (hkh : kh < 2) (ho : o + 128 ≤ 256)
    (hs : S56x2x56x256.Slices ![0, kh, 0, o] S56x1x56x128) (a : Fin 56) (b : Fin 56) (c : Fin 128) :
    part P0 kh o hs (ix3 a b c)
      = P0 (ix5 (⟨0, Nat.one_pos⟩ : Fin 1) a (⟨kh, hkh⟩ : Fin 2) b (⟨c.val + o, by omega⟩ : Fin 256)) := by
  unfold part
  refine (shapeCast_apply _ _ (ix3 a b c) (ix4 a (⟨0, Nat.one_pos⟩ : Fin 1) b c) ?_).trans ?_
  · rw [Shape.rowMajor_val_four, Shape.rowMajor_val_three]
    show ((a.val * 1 + 0) * 56 + b.val) * 128 + c.val = (a.val * 56 + b.val) * 128 + c.val
    omega
  refine (extractStridedSlice_apply _ _ hs _ (ix4 a (⟨kh, hkh⟩ : Fin 2) b (⟨c.val + o, by omega⟩ : Fin 256))
    (fun e => match e with
      | ⟨0, _⟩ => by show a.val = 0 + a.val; omega
      | ⟨1, _⟩ => by show kh = kh + 0; omega
      | ⟨2, _⟩ => by show b.val = 0 + b.val; omega
      | ⟨3, _⟩ => by show c.val + o = o + c.val; omega)).trans ?_
  refine shapeCast_apply _ _ _ _ ?_
  rw [Shape.rowMajor_val_five, Shape.rowMajor_val_four]
  show (((0 * 56 + a.val) * 2 + kh) * 56 + b.val) * 256 + (c.val + o) = ((a.val * 2 + kh) * 56 + b.val) * 256 + (c.val + o)
  omega

/-- The broadcast weight row at `(p, q, c)` is the table at `(k, c)`. -/
theorem wrow_at (P1 : Vec F S4x128 .f32) (k : Nat) (hk : k < 4) (hs : S4x128.Slices ![k, 0] S1x128)
    (a : Fin 56) (b : Fin 56) (c : Fin 128) :
    wrow P1 k hs (ix3 a b c) = P1 (ix2 (⟨k, hk⟩ : Fin 4) c) := by
  unfold wrow
  refine (broadcastTo_apply _ _ (ix3 a b c) (ix3 (⟨0, Nat.one_pos⟩ : Fin 1) (⟨0, Nat.one_pos⟩ : Fin 1) c)
    (fun e => match e with
      | ⟨0, _⟩ => by show 0 = if (1 : Nat) = 1 then 0 else a.val; rw [if_pos rfl]
      | ⟨1, _⟩ => by show 0 = if (1 : Nat) = 1 then 0 else b.val; rw [if_pos rfl]
      | ⟨2, _⟩ => by show c.val = if (128 : Nat) = 1 then 0 else c.val; rw [if_neg (by decide)])).trans ?_
  refine (shapeCast_apply _ _ _ (ix1 c) ?_).trans ?_
  · rw [Shape.rowMajor_val_one, Shape.rowMajor_val_three]
    show c.val = (0 * 1 + 0) * 128 + c.val
    omega
  refine (shapeCast_apply _ _ _ (ix2 (⟨0, Nat.one_pos⟩ : Fin 1) c) ?_).trans ?_
  · rw [Shape.rowMajor_val_two, Shape.rowMajor_val_one]
    show 0 * 128 + c.val = c.val
    omega
  refine (extractStridedSlice_apply _ _ hs _ (ix2 (⟨k, hk⟩ : Fin 4) c)
    (fun e => match e with
      | ⟨0, _⟩ => by show k = k + 0; omega
      | ⟨1, _⟩ => by show c.val = 0 + c.val; omega)).trans ?_
  rw [shapeCast_self]

/-- The value before the unit axis is put back, at an index: the network and the weighted sum of the four slices and the
    four weight rows there. The body's elementwise operations act index by index, so this is the definitions unfolded. -/
theorem pay2_at (P0 : Vec F S1x56x2x56x256 .f32) (P1 : Vec F S4x128 .f32) (i : S56x56x128.Idx) :
    k0_pay2 P0 P1 i
      = net (part P0 0 0 slices_S56x2x56x256_o0_0_0_0_S56x1x56x128 i) (part P0 0 128 slices_S56x2x56x256_o0_0_0_128_S56x1x56x128 i)
          (part P0 1 0 slices_S56x2x56x256_o0_1_0_0_S56x1x56x128 i) (part P0 1 128 slices_S56x2x56x256_o0_1_0_128_S56x1x56x128 i)
          (wrow P1 0 slices_S4x128_o0_0_S1x128 i) (wrow P1 1 slices_S4x128_o1_0_S1x128 i)
          (wrow P1 2 slices_S4x128_o2_0_S1x128 i) (wrow P1 3 slices_S4x128_o3_0_S1x128 i) := rfl

/-- THE STORED VALUE at block index `y`: the specification's network and weighted sum of the image block's four window
    entries under `y` and the four weights of `y`'s channel. -/
theorem pay_at (P0 : Vec F S1x56x2x56x256 .f32) (P1 : Vec F S4x128 .f32) (y : S1x56x56x128.Idx) :
    k0_pay1 (k0_pay2 P0 P1) y
      = net (P0 (bsrc y 0 0)) (P0 (bsrc y 0 1)) (P0 (bsrc y 1 0)) (P0 (bsrc y 1 1))
          (P1 (bwix y 0)) (P1 (bwix y 1)) (P1 (bwix y 2)) (P1 (bwix y 3)) := by
  have h0 : (y 0).val < 1 := (y 0).isLt
  have h1 : (y 1).val < 56 := (y 1).isLt
  have h2 : (y 2).val < 56 := (y 2).isLt
  have h3 : (y 3).val < 128 := (y 3).isLt
  unfold k0_pay1
  refine (shapeCast_apply _ _ y (ix3 (⟨(y 1).val, h1⟩ : Fin 56) (⟨(y 2).val, h2⟩ : Fin 56) (⟨(y 3).val, h3⟩ : Fin 128)) ?_).trans ?_
  · rw [Shape.rowMajor_val_three, Shape.rowMajor_val_four]
    show ((y 1).val * 56 + (y 2).val) * 128 + (y 3).val = (((y 0).val * 56 + (y 1).val) * 56 + (y 2).val) * 128 + (y 3).val
    omega
  rw [pay2_at, part_at P0 0 0 (by omega) (by omega), part_at P0 0 128 (by omega) (by omega), part_at P0 1 0 (by omega) (by omega),
    part_at P0 1 128 (by omega) (by omega), wrow_at P1 0 (by omega), wrow_at P1 1 (by omega), wrow_at P1 2 (by omega),
    wrow_at P1 3 (by omega)]
  rfl

end Cert.KernelIdeal.KValue

end
-- ==== Proof.KernelValue.lean ====
/-
  The kernel's result array after the run, as one function of the arrays the region finds.

  The grid has one axis of 32 points; point `t` stages block `t` of the re-laid image (shape [32, 56, 2, 56, 256], one block
  per batch entry), the whole transposed weight table, and writes block `t` of the result (shape [32, 56, 56, 128]). What
  a point writes back is the body's stored value on its blocks, so — block coordinates being index × block size + the
  coordinate inside the block — it is block `t` of ONE function of the two arrays, `pooledK`: at `(n, p, q, c)` the
  network and weighted sum of the re-laid image at `(n, p, kh, q, 128·kw + c)` and the transposed table at `(k, c)`. The 32
  blocks tile the result, so after the run the result array is `pooledK` everywhere.
-/
import proofs.«172936_j31842887532985_2_alg».proof.Proof.Gen.KernelIdeal.Frame
import proofs.«172936_j31842887532985_2_alg».proof.Proof.Payload
import Idealize.ShloMosaic.Lib.Pipeline.Value

noncomputable section

namespace Cert.KernelIdeal.KValue

open Cert.KernelIdeal Cert.KernelIdeal.Gen Idealize.ShloMosaic Idealize.ShloMosaic.TcCoe Idealize.SL.Sem
open Idealize.ShloMosaic.ValueIdx Cert.OrdinalPool
open Idealize.ShloMosaic.Pipeline (Dat)

variable {F : FTy → Type} [FloatOps F]
variable (m : (ℓ : Loc nD τ sig) → Buf (Elt F) ℓ) (ρ : Dev nD → PrngReg)

/-! ## The function of the two staged arrays -/

/-- Where result index `i` finds the window entry `(kh, kw)` in the re-laid image. -/
abbrev asrc (i : S32x56x56x128.Idx) (kh kw : Fin 2) : S32x56x2x56x256.Idx :=
  ix5 (⟨(i 0).val, (i 0).isLt⟩ : Fin 32) (⟨(i 1).val, (i 1).isLt⟩ : Fin 56) kh (⟨(i 2).val, (i 2).isLt⟩ : Fin 56)
    (⟨(i 3).val + 128 * kw.val, by have h : (i 3).val < 128 := (i 3).isLt; have := kw.isLt; omega⟩ : Fin 256)

/-- Where result index `i` finds the weight of rank `k` in the transposed table. -/
abbrev awix (i : S32x56x56x128.Idx) (k : Fin 4) : S4x128.Idx := ix2 k (⟨(i 3).val, (i 3).isLt⟩ : Fin 128)

/-- The result as a function of the re-laid image `A` and the transposed weight table `B`. -/
def pooledK (A : S32x56x2x56x256.Idx → F .f32) (B : S4x128.Idx → F .f32) : S32x56x56x128.Idx → F .f32 := fun i =>
  net (A (asrc i 0 0)) (A (asrc i 0 1)) (A (asrc i 1 0)) (A (asrc i 1 1)) (B (awix i 0)) (B (awix i 1)) (B (awix i 2)) (B (awix i 3))

/-! ## The index maps, decided over the 32 points -/

theorem hz5 : (![0, 0, 0, 0, 0] : Fin 5 → Nat) = fun _ => 0 := funext fun a => by fin_cases a <;> rfl
theorem hz4 : (![0, 0, 0, 0] : Fin 4 → Nat) = fun _ => 0 := funext fun a => by fin_cases a <;> rfl
theorem hz2 : (![0, 0] : Fin 2 → Nat) = fun _ => 0 := funext fun a => by fin_cases a <;> rfl

/-- The image window moves with the result window along the batch axis and sits at block 0 on every other axis; the weight
    window never moves. -/
theorem idx_facts : ∀ t : Fin cfg0.N,
    win0_0.index t (0 : Fin 5) = win0_2.index t (0 : Fin 4)
    ∧ win0_0.index t (1 : Fin 5) = 0 ∧ win0_0.index t (2 : Fin 5) = 0 ∧ win0_0.index t (3 : Fin 5) = 0 ∧ win0_0.index t (4 : Fin 5) = 0
    ∧ win0_1.index t (0 : Fin 2) = 0 ∧ win0_1.index t (1 : Fin 2) = 0
    ∧ win0_2.index t (1 : Fin 4) = 0 ∧ win0_2.index t (2 : Fin 4) = 0 ∧ win0_2.index t (3 : Fin 4) = 0
    ∧ win0_2.index t (0 : Fin 4) ≤ 31 :=
  (by decide +kernel : ∀ t : Fin grid0.N, _)

/-- Every batch entry is some point's block. -/
theorem idx_onto : ∀ q : Fin 32, ∃ t : Fin cfg0.N, win0_2.index t = ![q.val, 0, 0, 0] :=
  (by decide +kernel : ∀ q : Fin 32, ∃ t : Fin grid0.N, win0_2.index t = ![q.val, 0, 0, 0])

/-- The image block's entry under block index `j` is the re-laid image's entry under the result index `j` stands for. -/
theorem emb_src (t : Fin cfg0.N) (j : S1x56x56x128.Idx) (kh kw : Fin 2) :
    ((cfg0.win 0).blk t).view.emb (bsrc j kh kw) = asrc (((cfg0.win 2).blk t).view.emb j) kh kw := by
  obtain ⟨e0, e1, e2, e3, e4, -, -, f1, f2, f3, -⟩ := idx_facts t
  have hj0 : (j 0).val < 1 := (j 0).isLt
  funext a; apply Fin.ext
  match a with
  | ⟨0, _⟩ => show win0_0.index t (0 : Fin 5) * 1 + 1 * 0 = win0_2.index t (0 : Fin 4) * 1 + 1 * (j 0).val; omega
  | ⟨1, _⟩ => show win0_0.index t (1 : Fin 5) * 56 + 1 * (j 1).val = win0_2.index t (1 : Fin 4) * 56 + 1 * (j 1).val; omega
  | ⟨2, _⟩ => show win0_0.index t (2 : Fin 5) * 2 + 1 * kh.val = kh.val; omega
  | ⟨3, _⟩ => show win0_0.index t (3 : Fin 5) * 56 + 1 * (j 2).val = win0_2.index t (2 : Fin 4) * 56 + 1 * (j 2).val; omega
  | ⟨4, _⟩ => show win0_0.index t (4 : Fin 5) * 256 + 1 * ((j 3).val + 128 * kw.val) = win0_2.index t (3 : Fin 4) * 128 + 1 * (j 3).val + 128 * kw.val; omega

/-- The weight block's entry under block index `j` is the transposed table's entry for the result index's channel. -/
theorem emb_wix (t : Fin cfg0.N) (j : S1x56x56x128.Idx) (k : Fin 4) :
    ((cfg0.win 1).blk t).view.emb (bwix j k) = awix (((cfg0.win 2).blk t).view.emb j) k := by
  obtain ⟨-, -, -, -, -, g0, g1, -, -, f3, -⟩ := idx_facts t
  funext a; apply Fin.ext
  match a with
  | ⟨0, _⟩ => show win0_1.index t (0 : Fin 2) * 4 + 1 * k.val = k.val; omega
  | ⟨1, _⟩ => show win0_1.index t (1 : Fin 2) * 128 + 1 * (j 3).val = win0_2.index t (3 : Fin 4) * 128 + 1 * (j 3).val; omega

/-! ## What a point writes back, and the whole array -/

/-- WHAT POINT `t` WRITES BACK is block `t` of `pooledK` of the two staged arrays as the region finds them. -/
theorem flushed_eq (c : Dev nD) (t : Fin cfg0.N) :
    (dats m 0 c).flushed 2 t = ((cfg0.win 2).blk t).view.read (Elt F) (pooledK (V m c main_v9) (V m c main_v8)) := by
  show (cfg0.win 2).cut (grid0.coords t) ((dats m 0 c).after 2 t) = _
  rw [after0_2]
  unfold out0_2
  rw [View.canon_unit_zero hz4]
  simp only [View.ld_unit_zero (S := S1x56x2x56x256) hz5, View.ld_unit_zero (S := S4x128) hz2]
  funext j
  show k0_pay1 (k0_pay2 (iblk m c 0 t) (iblk m c 1 t)) j = pooledK (V m c main_v9) (V m c main_v8) (((cfg0.win 2).blk t).view.emb j)
  refine (pay_at (iblk m c 0 t) (iblk m c 1 t) j).trans ?_
  show net (V m c main_v9 (((cfg0.win 0).blk t).view.emb (bsrc j 0 0))) (V m c main_v9 (((cfg0.win 0).blk t).view.emb (bsrc j 0 1)))
      (V m c main_v9 (((cfg0.win 0).blk t).view.emb (bsrc j 1 0))) (V m c main_v9 (((cfg0.win 0).blk t).view.emb (bsrc j 1 1)))
      (V m c main_v8 (((cfg0.win 1).blk t).view.emb (bwix j 0))) (V m c main_v8 (((cfg0.win 1).blk t).view.emb (bwix j 1)))
      (V m c main_v8 (((cfg0.win 1).blk t).view.emb (bwix j 2))) (V m c main_v8 (((cfg0.win 1).blk t).view.emb (bwix j 3)))
    = net (V m c main_v9 (asrc (((cfg0.win 2).blk t).view.emb j) 0 0)) (V m c main_v9 (asrc (((cfg0.win 2).blk t).view.emb j) 0 1))
      (V m c main_v9 (asrc (((cfg0.win 2).blk t).view.emb j) 1 0)) (V m c main_v9 (asrc (((cfg0.win 2).blk t).view.emb j) 1 1))
      (V m c main_v8 (awix (((cfg0.win 2).blk t).view.emb j) 0)) (V m c main_v8 (awix (((cfg0.win 2).blk t).view.emb j) 1))
      (V m c main_v8 (awix (((cfg0.win 2).blk t).view.emb j) 2)) (V m c main_v8 (awix (((cfg0.win 2).blk t).view.emb j) 3))
  rw [emb_src t j 0 0, emb_src t j 0 1, emb_src t j 1 0, emb_src t j 1 1, emb_wix t j 0, emb_wix t j 1, emb_wix t j 2, emb_wix t j 3]

/-- An index of the result is in point `t`'s block iff each coordinate is in the block's range on its axis. -/
theorem mem_blk (t : Fin cfg0.N) (i : S32x56x56x128.Idx) :
    i ∈ ((cfg0.win 2).blk t).view.set ↔ ∀ a : Fin 4, win0_2.index t a * S1x56x56x128.size a ≤ (i a).val
      ∧ (i a).val < win0_2.index t a * S1x56x56x128.size a + S1x56x56x128.size a := by
  show i ∈ ((View.whole main_v10).slice (win0_2.rect t)).set ↔ _
  rw [View.set_slice_whole, Rect.mem_set_unit]
  exact Iff.rfl

/-- The blocks tile the result: index `(n, p, q, c)` is in the block of the point whose batch entry is `n`. -/
theorem cover (i : S32x56x56x128.Idx) :
    ∃ t : Fin cfg0.N, (cfg0.win 2).flush t = true ∧ i ∈ ((cfg0.win 2).blk t).view.set := by
  have hi0 : (i 0).val < 32 := (i 0).isLt
  have hi1 : (i 1).val < 56 := (i 1).isLt
  have hi2 : (i 2).val < 56 := (i 2).isLt
  have hi3 : (i 3).val < 128 := (i 3).isLt
  obtain ⟨t, ht⟩ := idx_onto ⟨(i 0).val, hi0⟩
  have q0 : win0_2.index t (0 : Fin 4) = (i 0).val := congrFun ht 0
  have q1 : win0_2.index t (1 : Fin 4) = 0 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 56 ≤ (i 1).val ∧ (i 1).val < win0_2.index t (1 : Fin 4) * 56 + 56; omega
  | ⟨2, _⟩ => show win0_2.index t (2 : Fin 4) * 56 ≤ (i 2).val ∧ (i 2).val < win0_2.index t (2 : Fin 4) * 56 + 56; omega
  | ⟨3, _⟩ => show win0_2.index t (3 : Fin 4) * 128 ≤ (i 3).val ∧ (i 3).val < win0_2.index t (3 : Fin 4) * 128 + 128; omega

/-- THE RESULT ARRAY after the run is `pooledK` of the two staged arrays. -/
theorem final (c : Dev nD) : (dats m 0 c).arrAt 2 cfg0.N = pooledK (V m c main_v9) (V m c main_v8) :=
  (dats m 0 c).arrAt_eq_of_cover 2 (pooledK (V m c main_v9) (V m c main_v8)) (fun t _ => flushed_eq m c t) cover

end Cert.KernelIdeal.KValue

end
-- ==== Proof.KernelRun.lean ====
/-
  The kernel's run, read back: the result array is ordinal pooling of the image argument with the normalised weights.

  Before the region the host clips the weight argument's negative entries to zero, divides each channel's four weights by
  their sum (`normW`), transposes the table to [4, 128], and re-lays the image [32, 112, 112, 128] as [32, 56, 2, 56, 256] — a
  reshape, which keeps row-major positions: entry `(n, p, kh, q, 128·kw + c)` of the re-laid image is `x[n, 2p+kh, 2q+kw, c]`,
  and entry `(k, c)` of the transposed table is `w[c, k]`. So the function of the two staged arrays that the region leaves in
  the result array is the specification's `pooled` of the two arguments.
-/
import proofs.«172936_j31842887532985_2_alg».proof.Proof.KernelValue
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx Cert.OrdinalPool Idealize.ShloMosaic.StableHlo
open Idealize.ShloMosaic.Pipeline (Dat)

variable {F : FTy → Type} [FloatOps F]
variable (m : (ℓ : Loc nD τ sig) → Buf (Elt F) ℓ) (ρ : Dev nD → PrngReg)

/-! ## The host operations before the region -/

/-- The weight table as the host prepares it: entries below zero replaced by zero (the entry times the 0/1 value of
    `w ≥ 0`), then each channel's row divided by the row's sum. -/
def normW (A : FVec F S128x4 .f32) : FVec F S128x4 .f32 :=
  Host.divf
    (mulf A (uitofp .f32 (cmpf .oge A (broadcastInDim S128x4 ![] bcast_S_S128x4 (constant (F := F) S_ .f32 0x00000000#32)))))
    (broadcastInDim S128x4 ![0, 1] bcast_S128x1_S128x4_0_1 (broadcastInDim S128x1 ![0] bcast_S128_S128x1_0
      (Host.reduceAdd
        (mulf A (uitofp .f32 (cmpf .oge A (broadcastInDim S128x4 ![] bcast_S_S128x4 (constant (F := F) S_ .f32 0x00000000#32)))))
        (constant (F := F) S_ .f32 0x00000000#32) reducesTo_S128x4_S128_d1 h_S_)))

/-- The region finds the image re-laid. -/
theorem V_relaid (c : Dev nD) :
    (V m c main_v9 : S32x56x2x56x256.Idx → Elt F .f32)
      = shapeCast S32x56x2x56x256 (m ((c : Thread nD τ).loc main_arg0)) shapeCasts_S32x112x112x128_S32x56x2x56x256 := by
  dsimp only [Gen.V, Gen.hostOps0]
  after_results
  rfl

/-- The region finds the normalised weight table transposed. -/
theorem V_weights (c : Dev nD) :
    (V m c main_v8 : S4x128.Idx → Elt F .f32)
      = transpose S4x128 [1, 0] (normW (m ((c : Thread nD τ).loc main_arg1))) transposes_S128x4_S4x128_1_0 := by
  dsimp only [Gen.V, Gen.hostOps0]
  after_results
  rfl

/-! ## The two staged arrays read at an index -/

/-- The re-laid image at `(n, p, kh, q, 128·kw + c)` is the image at `(n, 2p+kh, 2q+kw, c)`: the same row-major position. -/
theorem relaid_at (X : FVec F S32x112x112x128 .f32) (i : S32x56x56x128.Idx) (kh kw : Fin 2) :
    shapeCast S32x56x2x56x256 X shapeCasts_S32x112x112x128_S32x56x2x56x256 (asrc i kh kw) = X (src i kh kw) := by
  have h0 : (i 0).val < 32 := (i 0).isLt
  have h1 : (i 1).val < 56 := (i 1).isLt
  have h2 : (i 2).val < 56 := (i 2).isLt
  have h3 : (i 3).val < 128 := (i 3).isLt
  have hh := kh.isLt
  have hw := kw.isLt
  refine shapeCast_apply _ _ _ _ ?_
  rw [Shape.rowMajor_val_four, Shape.rowMajor_val_five]
  show (((i 0).val * 112 + (2 * (i 1).val + kh.val)) * 112 + (2 * (i 2).val + kw.val)) * 128 + (i 3).val
    = ((((i 0).val * 56 + (i 1).val) * 2 + kh.val) * 56 + (i 2).val) * 256 + ((i 3).val + 128 * kw.val)
  omega

/-- The transposed table at `(k, c)` is the table at `(c, k)`. -/
theorem transposed_at (W : FVec F S128x4 .f32) (i : S32x56x56x128.Idx) (k : Fin 4) :
    transpose S4x128 [1, 0] W transposes_S128x4_S4x128_1_0 (awix i k) = W (wix i k) :=
  transpose_apply _ _ _ _ _ (fun b => match b with | ⟨0, _⟩ => rfl | ⟨1, _⟩ => rfl)

/-- The function of the staged arrays, at the re-laid image and the transposed table, is the specification. -/
theorem pooledK_eq (X : FVec F S32x112x112x128 .f32) (W : FVec F S128x4 .f32) :
    pooledK (shapeCast S32x56x2x56x256 X shapeCasts_S32x112x112x128_S32x56x2x56x256)
      (transpose S4x128 [1, 0] W transposes_S128x4_S4x128_1_0) = pooled X W := by
  funext i
  unfold pooledK pooled
  rw [relaid_at X i 0 0, relaid_at X i 0 1, relaid_at X i 1 0, relaid_at X i 1 1,
    transposed_at W i 0, transposed_at W i 1, transposed_at W i 2, transposed_at W i 3]

/-! ## The run -/

/-- After the frame run the result buffer holds the array the pipeline's proof data computes. -/
theorem post_result (r : PUnit × MemSt nD τ sig (Elt F)) (h : Pipeline.FramePost cfgs (dats m) 0 (V m) r) (c : Dev nD) :
    r.2.mem ((c : Thread nD τ).loc main_v10) = (dats m 0 c).arrAt 2 cfg0.N :=
  (h c).1 2

/-- The image argument is as launched: no window stages it and no host operation writes it. -/
theorem kept_image (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- The weight argument is as launched. -/
theorem kept_weights (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- The result array after the run, in terms of the arguments. -/
theorem final_args (c : Dev nD) :
    (dats m 0 c).arrAt 2 cfg0.N
      = pooled (m ((c : Thread nD τ).loc main_arg0)) (normW (m ((c : Thread nD τ).loc main_arg1))) := by
  rw [final m c, V_relaid m c, V_weights m c, pooledK_eq]

/-- THE KERNEL'S RUN: every weakly fair execution terminates with the result array at ordinal pooling of the image with the
    normalised weights, and the arguments unchanged. -/
theorem run : θ_run defs (onTc (τ := τ) (main (F := F))) ⟨m, fun _ => 0, ρ⟩ fun r => ∀ c : Dev nD,
      r.2.mem ((c : Thread nD τ).loc main_v10)
        = pooled (m ((c : Thread nD τ).loc main_arg0)) (normW (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(post_result m r h c).trans (final_args m c), kept_image m r h c, kept_weights m r h c⟩)
    (run_main m ρ)

end Cert.KernelIdeal.KValue

end
-- ==== Proof.RefValue.lean ====
/-
  The reference program computes ordinal pooling.

  The reference reshapes the image to [32, 56, 2, 56, 2, 128], takes the four unit slices (kh, kw) ∈ {0,1}², reshapes each
  back to [32, 56, 56, 128] — entry (n, p, q, c) of the slice (kh, kw) is x[n, 2p+kh, 2q+kw, c], the two reshapes keeping the
  row-major position —, runs the sorting network on the four slices elementwise, stacks the four sorted arrays on a new last
  axis, multiplies by the weight table broadcast over (n, p, q), and sums the last axis starting from 0. At the extended
  reals that sum is 0 + (((t₀ + t₁) + t₂) + t₃), which is the specification's grouping after the leading zero is dropped.
-/
import proofs.«172936_j31842887532985_2_alg».proof.Proof.Gen.ReferenceIdeal.Read
import proofs.«172936_j31842887532985_2_alg».proof.Proof.Spec
import Idealize.ShloMosaic.Lib.ValueIdxRank6
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.OrdinalPool

variable {F : FTy → Type} [FloatOps F]

/-! ## A window entry: reshape, unit slice, reshape back -/

/-- The slice with offsets `(kh, kw)` on the two window axes, reshaped to the output shape, holds at `(n, p, q, c)` the image
    entry `x[n, 2p+kh, 2q+kw, c]`: both reshapes keep the row-major position, and the slice adds its offsets. -/
theorem window_entry (x0 : FVec F S32x112x112x128 .f32) (kh kw : Nat) (hkh : kh < 2) (hkw : kw < 2)
    (hs : S32x56x2x56x2x128.Slices ![0, 0, kh, 0, kw, 0] S32x56x1x56x1x128) (i : S32x56x56x128.Idx) :
    shapeCast S32x56x56x128 (extractStridedSlice S32x56x1x56x1x128 ![0, 0, kh, 0, kw, 0]
      (shapeCast S32x56x2x56x2x128 x0 shapeCasts_S32x112x112x128_S32x56x2x56x2x128) hs) shapeCasts_S32x56x1x56x1x128_S32x56x56x128 i
      = x0 (src i ⟨kh, hkh⟩ ⟨kw, hkw⟩) := by
  have h0 : (i 0).val < 32 := (i 0).isLt
  have h1 : (i 1).val < 56 := (i 1).isLt
  have h2 : (i 2).val < 56 := (i 2).isLt
  have h3 : (i 3).val < 128 := (i 3).isLt
  refine (shapeCast_apply _ _ i
    (ix6 (⟨(i 0).val, h0⟩ : Fin 32) (⟨(i 1).val, h1⟩ : Fin 56) (⟨0, by omega⟩ : Fin 1) (⟨(i 2).val, h2⟩ : Fin 56) (⟨0, by omega⟩ : Fin 1) (⟨(i 3).val, h3⟩ : Fin 128)) ?_).trans ?_
  · rw [Shape.rowMajor_val_six, Shape.rowMajor_val_four]
    show (((((i 0).val * 56 + (i 1).val) * 1 + 0) * 56 + (i 2).val) * 1 + 0) * 128 + (i 3).val = (((i 0).val * 56 + (i 1).val) * 56 + (i 2).val) * 128 + (i 3).val
    omega
  refine (extractStridedSlice_apply _ _ hs _
    (ix6 (⟨(i 0).val, h0⟩ : Fin 32) (⟨(i 1).val, h1⟩ : Fin 56) (⟨kh, hkh⟩ : Fin 2) (⟨(i 2).val, h2⟩ : Fin 56) (⟨kw, hkw⟩ : Fin 2) (⟨(i 3).val, h3⟩ : Fin 128))
    (fun a => match a with
      | ⟨0, _⟩ => by show (i 0).val = 0 + (i 0).val; omega
      | ⟨1, _⟩ => by show (i 1).val = 0 + (i 1).val; omega
      | ⟨2, _⟩ => by show kh = kh + 0; omega
      | ⟨3, _⟩ => by show (i 2).val = 0 + (i 2).val; omega
      | ⟨4, _⟩ => by show kw = kw + 0; omega
      | ⟨5, _⟩ => by show (i 3).val = 0 + (i 3).val; omega)).trans ?_
  refine shapeCast_apply _ _ _ (src i ⟨kh, hkh⟩ ⟨kw, hkw⟩) ?_
  rw [Shape.rowMajor_val_six, Shape.rowMajor_val_four]
  show (((i 0).val * 112 + (2 * (i 1).val + kh)) * 112 + (2 * (i 2).val + kw)) * 128 + (i 3).val
    = (((((i 0).val * 56 + (i 1).val) * 2 + kh) * 56 + (i 2).val) * 2 + kw) * 128 + (i 3).val
  omega

theorem v10_at (x0 : FVec F S32x112x112x128 .f32) (i : S32x56x56x128.Idx) : val_main_v10 x0 i = x0 (src i 0 0) :=
  window_entry x0 0 0 (by omega) (by omega) _ i
theorem v12_at (x0 : FVec F S32x112x112x128 .f32) (i : S32x56x56x128.Idx) : val_main_v12 x0 i = x0 (src i 0 1) :=
  window_entry x0 0 1 (by omega) (by omega) _ i
theorem v14_at (x0 : FVec F S32x112x112x128 .f32) (i : S32x56x56x128.Idx) : val_main_v14 x0 i = x0 (src i 1 0) :=
  window_entry x0 1 0 (by omega) (by omega) _ i
theorem v16_at (x0 : FVec F S32x112x112x128 .f32) (i : S32x56x56x128.Idx) : val_main_v16 x0 i = x0 (src i 1 1) :=
  window_entry x0 1 1 (by omega) (by omega) _ i

/-! ## The stacked axis and the broadcast weight table at an index -/

/-- Output index `i` with a unit coordinate appended: where the four sorted arrays sit before they are stacked. -/
abbrev pad (i : S32x56x56x128.Idx) : S32x56x56x128x1.Idx :=
  ix5 (⟨(i 0).val, (i 0).isLt⟩ : Fin 32) (⟨(i 1).val, (i 1).isLt⟩ : Fin 56) (⟨(i 2).val, (i 2).isLt⟩ : Fin 56)
    (⟨(i 3).val, (i 3).isLt⟩ : Fin 128) (⟨0, Nat.one_pos⟩ : Fin 1)

/-- Rank 0 of the stacked array is the largest value `s₀`. -/
theorem stacked0 (x0 : FVec F S32x112x112x128 .f32) (i : S32x56x56x128.Idx) :
    val_main_v33 x0 (idx_main_v37 i 0) = val_main_v23 x0 i := by
  unfold val_main_v33
  refine (concatenate_apply_piece _ _ _ (idx_main_v37 i 0) 0 (by show 0 < 4; omega) S32x56x56x128x1 (val_main_v29 x0) rfl rfl 0 rfl (pad i)
    (fun b => match b with
      | ⟨0, _⟩ => fun _ => rfl | ⟨1, _⟩ => fun _ => rfl | ⟨2, _⟩ => fun _ => rfl | ⟨3, _⟩ => fun _ => rfl
      | ⟨4, _⟩ => fun h => absurd rfl h) rfl).trans ?_
  rw [val_main_v29_apply]
  exact congrArg _ (funext fun a => by match a with | ⟨0, _⟩ => rfl | ⟨1, _⟩ => rfl | ⟨2, _⟩ => rfl | ⟨3, _⟩ => rfl)

/-- Rank 1 is `s₁`. -/
theorem stacked1 (x0 : FVec F S32x112x112x128 .f32) (i : S32x56x56x128.Idx) :
    val_main_v33 x0 (idx_main_v37 i 1) = val_main_v27 x0 i := by
  unfold val_main_v33
  refine (concatenate_apply_piece _ _ _ (idx_main_v37 i 1) 1 (by show 1 < 4; omega) S32x56x56x128x1 (val_main_v30 x0) rfl rfl 1 rfl (pad i)
    (fun b => match b with
      | ⟨0, _⟩ => fun _ => rfl | ⟨1, _⟩ => fun _ => rfl | ⟨2, _⟩ => fun _ => rfl | ⟨3, _⟩ => fun _ => rfl
      | ⟨4, _⟩ => fun h => absurd rfl h) rfl).trans ?_
  rw [val_main_v30_apply]
  exact congrArg _ (funext fun a => by match a with | ⟨0, _⟩ => rfl | ⟨1, _⟩ => rfl | ⟨2, _⟩ => rfl | ⟨3, _⟩ => rfl)

/-- Rank 2 is `s₂`. -/
theorem stacked2 (x0 : FVec F S32x112x112x128 .f32) (i : S32x56x56x128.Idx) :
    val_main_v33 x0 (idx_main_v37 i 2) = val_main_v28 x0 i := by
  unfold val_main_v33
  refine (concatenate_apply_piece _ _ _ (idx_main_v37 i 2) 2 (by show 2 < 4; omega) S32x56x56x128x1 (val_main_v31 x0) rfl rfl 2 rfl (pad i)
    (fun b => match b with
      | ⟨0, _⟩ => fun _ => rfl | ⟨1, _⟩ => fun _ => rfl | ⟨2, _⟩ => fun _ => rfl | ⟨3, _⟩ => fun _ => rfl
      | ⟨4, _⟩ => fun h => absurd rfl h) rfl).trans ?_
  rw [val_main_v31_apply]
  exact congrArg _ (funext fun a => by match a with | ⟨0, _⟩ => rfl | ⟨1, _⟩ => rfl | ⟨2, _⟩ => rfl | ⟨3, _⟩ => rfl)

/-- Rank 3 is the smallest value `s₃`. -/
theorem stacked3 (x0 : FVec F S32x112x112x128 .f32) (i : S32x56x56x128.Idx) :
    val_main_v33 x0 (idx_main_v37 i 3) = val_main_v26 x0 i := by
  unfold val_main_v33
  refine (concatenate_apply_piece _ _ _ (idx_main_v37 i 3) 3 (by show 3 < 4; omega) S32x56x56x128x1 (val_main_v32 x0) rfl rfl 3 rfl (pad i)
    (fun b => match b with
      | ⟨0, _⟩ => fun _ => rfl | ⟨1, _⟩ => fun _ => rfl | ⟨2, _⟩ => fun _ => rfl | ⟨3, _⟩ => fun _ => rfl
      | ⟨4, _⟩ => fun h => absurd rfl h) rfl).trans ?_
  rw [val_main_v32_apply]
  exact congrArg _ (funext fun a => by match a with | ⟨0, _⟩ => rfl | ⟨1, _⟩ => rfl | ⟨2, _⟩ => rfl | ⟨3, _⟩ => rfl)

/-- The weight table broadcast over `(n, p, q)`: at `(n, p, q, c, k)` it is the normalised weight `w[c, k]`. -/
theorem weight_at (x1 : FVec F S128x4 .f32) (i : S32x56x56x128.Idx) (k : Fin 4) :
    val_main_v35 x1 (idx_main_v37 i k) = val_main_v7 x1 (wix i k) := by
  rw [val_main_v35_apply, val_main_v34_apply]
  exact congrArg _ (funext fun a => by match a with | ⟨0, _⟩ => rfl | ⟨1, _⟩ => rfl)

/-! ## The reference's result -/

/-- The reference's result array, as a function of the image and the weight argument, is ordinal pooling of the image with
    the normalised weight table (`val_main_v7`: negative weights clipped to zero, each channel's four divided by their sum).
    The sum over the stacked axis starts from the constant 0, which adds nothing on the extended reals. -/
theorem ref_pooled (x0 : FVec Ideal S32x112x112x128 .f32) (x1 : FVec Ideal S128x4 .f32) :
    val_main_v37 (F := Ideal) x0 x1 = pooled x0 (val_main_v7 (F := Ideal) x1) := by
  funext i
  rw [val_main_v37_apply, Fin.sum_univ_four]
  simp only [val_main_v36_apply, stacked0, stacked1, stacked2, stacked3, weight_at,
    val_main_v23_apply, val_main_v27_apply, val_main_v28_apply, val_main_v26_apply, val_main_v17_apply, val_main_v18_apply,
    val_main_v19_apply, val_main_v20_apply, val_main_v21_apply, val_main_v22_apply, val_main_v24_apply, val_main_v25_apply,
    v10_at, v12_at, v14_at, v16_at, val_main_cst_1_apply]
  show (Ideal.ofBits .f32 0x00000000#32 : EReal) + _ = _
  rw [Ideal.ofBits_zero_f32, zero_add]
  rfl

end Cert.ReferenceIdeal.RefValue

end
-- ==== Proof.lean ====
/-
  Ordinal pooling: the kernel and its reference agree on the extended reals.

  Both programs pool a [32, 112, 112, 128] image over non-overlapping 2×2 windows: the four entries of a window go through
  the five-step odd-even sorting network (each step a maximum and a minimum), and the sorted values, largest first, are
  weighted by the channel's four normalised weights and summed (Proof/Spec.lean: `pooled`). Both normalise the weight
  argument by the same host operations: negative weights clipped to zero, each channel's row divided by its sum.

  The kernel (Proof/Payload.lean, Proof/KernelValue.lean, Proof/KernelRun.lean) works on the image re-laid as
  [32, 56, 2, 56, 256], one batch entry per grid point, reads the four window entries as slices of the block, and adds the four
  weighted values in order; its 32 output blocks tile the result. The reference (Proof/RefValue.lean) reshapes to
  [32, 56, 2, 56, 2, 128], slices, sorts, stacks the sorted arrays on a last axis and sums that axis from 0. The two re-layings
  of the image keep row-major positions, so both read x[n, 2p+kh, 2q+kw, c]; maxima, minima and products are the same
  functions on both sides; and the reference's sum 0 + (((t₀ + t₁) + t₂) + t₃) is the kernel's ((t₀ + t₁) + t₂) + t₃ because
  0 is neutral for the extended reals' addition. No distributivity or cancellation is used, so the finiteness of the inputs
  is not needed. The three frames are the generated ones (the reference's is its generated run with the result dropped), and
  the idealization rewrote nothing, so `preserves` is trivial.
-/
import proofs.«172936_j31842887532985_2_alg».proof.Defs
import proofs.«172936_j31842887532985_2_alg».proof.Proof.Gen.Kernel
import proofs.«172936_j31842887532985_2_alg».proof.Proof.Gen.Kernel.Frame
import proofs.«172936_j31842887532985_2_alg».proof.Proof.Gen.KernelIdeal
import proofs.«172936_j31842887532985_2_alg».proof.Proof.Gen.KernelIdeal.Frame
import proofs.«172936_j31842887532985_2_alg».proof.Proof.Gen.ReferenceIdeal
import proofs.«172936_j31842887532985_2_alg».proof.Proof.Gen.ReferenceIdeal.Run
import proofs.«172936_j31842887532985_2_alg».proof.Proof.Gen.ReferenceIdeal.Read
import proofs.«172936_j31842887532985_2_alg».proof.Proof.Gen.Pre_finite_inputs
import proofs.«172936_j31842887532985_2_alg».proof.Proof.KernelRun
import proofs.«172936_j31842887532985_2_alg».proof.Proof.RefValue
import Idealize.ShloMosaic.Adequacy
import Idealize.ShloMosaic.Init

noncomputable section

namespace Cert.Proof

open Idealize.ShloMosaic Idealize.SL.Sem

/-- The two programs prepare the weight table by the same operations in the same order, so the kernel's normalised table is
    the reference's, as functions of the weight argument. -/
theorem normW_eq (A : FVec Ideal Cert.KernelIdeal.S128x4 .f32) :
    Cert.KernelIdeal.KValue.normW (F := Ideal) A = Cert.ReferenceIdeal.Read.val_main_v7 (F := Ideal) A := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the image and the weights, the kernel's result array and the reference's are both
    `pooled` of the image with the normalised weights. -/
theorem algebraic : Cert.algebraic_KernelIdeal_ReferenceIdeal := by
  intro m ρ m' ρ' _ hagree
  refine ⟨_, Cert.KernelIdeal.KValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefValue.ref_pooled, (hagree c).1, (hagree c).2, ← normW_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
